-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x32x32 : Shape := ⟨4, ![64, 256, 32, 32]⟩
abbrev S128x256 : Shape := ⟨2, ![128, 256]⟩
abbrev S256x128 : Shape := ⟨2, ![256, 128]⟩
abbrev S256x1 : Shape := ⟨2, ![256, 1]⟩
abbrev S_ : Shape := ⟨0, ![]⟩

class Facts : Prop where
  bcast_S_S64x256x32x32 : S_.BroadcastsInDim S64x256x32x32 (![] : Fin 0 → Fin S64x256x32x32.rank)
  reducesTo_S64x256x32x32_S_d0_1_2_3 : S64x256x32x32.ReducesTo [0, 1, 2, 3] S_
  h_S_ : 0 < S_.numel
  bcast_S_S128x256 : S_.BroadcastsInDim S128x256 (![] : Fin 0 → Fin S128x256.rank)
  reducesTo_S128x256_S_d0_1 : S128x256.ReducesTo [0, 1] S_
  bcast_S_S256x128 : S_.BroadcastsInDim S256x128 (![] : Fin 0 → Fin S256x128.rank)
  reducesTo_S256x128_S_d0_1 : S256x128.ReducesTo [0, 1] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  main_v18

def fn {F : FTy → Type} [FloatOps F] (main_arg0 : FVec F S64x256x32x32 .f32) (main_arg1 : FVec F S128x256 .f32) (main_arg2 : FVec F S256x128 .f32) (main_arg3 : FVec F S256x1 .f32) : IVec S_ 1 :=
  let main_v0 : FVec F S64x256x32x32 .f32 := Host.absf main_arg0
  let main_cst : FVec F S_ .f32 := constant S_ .f32 0x7F800000#32
  let main_v1 : FVec F S64x256x32x32 .f32 := broadcastInDim S64x256x32x32 ![] bcast_S_S64x256x32x32 main_cst
  let main_v2 : IVec S64x256x32x32 1 := cmpf .olt main_v0 main_v1
  let main_c : IVec S_ 1 := constantI S_ 1 1#1
  let main_v3 : IVec S_ 1 := (fun x v => Host.reduce IntOp.andi x v reducesTo_S64x256x32x32_S_d0_1_2_3 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_v13 main_v16
-- ==== Kernel.lean ====
abbrev S64x256x32x32 : Shape := ⟨4, ![64, 256, 32, 32]⟩
abbrev S128x256 : Shape := ⟨2, ![128, 256]⟩
abbrev S256x128 : Shape := ⟨2, ![256, 128]⟩
abbrev S256x1 : Shape := ⟨2, ![256, 1]⟩
abbrev S64x256x1024 : Shape := ⟨3, ![64, 256, 1024]⟩
abbrev S1x256 : Shape := ⟨2, ![1, 256]⟩
abbrev S8x256x1024 : Shape := ⟨3, ![8, 256, 1024]⟩
abbrev S8x256 : Shape := ⟨2, ![8, 256]⟩
abbrev S8x128 : Shape := ⟨2, ![8, 128]⟩
abbrev S1x256x1024 : Shape := ⟨3, ![1, 256, 1024]⟩
abbrev S256x1024 : Shape := ⟨2, ![256, 1024]⟩
abbrev S1x1024 : Shape := ⟨2, ![1, 1024]⟩
abbrev S8x1024 : Shape := ⟨2, ![8, 1024]⟩
abbrev S8x256x1 : Shape := ⟨3, ![8, 256, 1]⟩
abbrev S8x1x1024 : Shape := ⟨3, ![8, 1, 1024]⟩

abbrev nBuf : Space → Nat
  | .hbm => 8
  | .vmem => 7
  | .smem => 0
  | _ => 0

abbrev bufTy : (tb : Table) → Fin (tcTables nBuf tb) → BufTy
  | .hbm, ⟨0, _⟩ => ⟨S64x256x32x32, .f32⟩
  | .hbm, ⟨1, _⟩ => ⟨S128x256, .f32⟩
  | .hbm, ⟨2, _⟩ => ⟨S256x128, .f32⟩
  | .hbm, ⟨3, _⟩ => ⟨S256x1, .f32⟩
  | .hbm, ⟨4, _⟩ => ⟨S64x256x1024, .f32⟩
  | .hbm, ⟨5, _⟩ => ⟨S1x256, .f32⟩
  | .hbm, ⟨6, _⟩ => ⟨S64x256x1024, .f32⟩
  | .hbm, ⟨7, _⟩ => ⟨S64x256x32x32, .f32⟩
  | .local _ .vmem, ⟨0, _⟩ => ⟨S8x256x1024, .f32⟩
  | .local _ .vmem, ⟨1, _⟩ => ⟨S8x256x1024, .f32⟩
  | .local _ .vmem, ⟨2, _⟩ => ⟨S128x256, .f32⟩
  | .local _ .vmem, ⟨3, _⟩ => ⟨S256x128, .f32⟩
  | .local _ .vmem, ⟨4, _⟩ => ⟨S1x256, .f32⟩
  | .local _ .vmem, ⟨5, _⟩ => ⟨S8x256x1024, .f32⟩
  | .local _ .vmem, ⟨6, _⟩ => ⟨S8x256x1024, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x256x32x32_S64x256x1024 : S64x256x32x32.ShapeCasts S64x256x1024
  shapeCasts_S256x1_S1x256 : S256x1.ShapeCasts S1x256
  inb_S8x256x1024_S8x256x1024_0_0_0 : ∀ a, (![0, 0, 0] : Fin 3 → Nat) a + S8x256x1024.size a ≤ S8x256x1024.size a
  h_S8x256x1024 : 0 < S8x256x1024.numel
  shapeCasts_S8x256x1024_S8x256x1024 : S8x256x1024.ShapeCasts S8x256x1024
  reduces_S8x256x1024_S8x256 : S8x256x1024.Reduces [2] S8x256
  inb_S128x256_S128x256_0_0 : ∀ a, (![0, 0] : Fin 2 → Nat) a + S128x256.size a ≤ S128x256.size a
  h_S128x256 : 0 < S128x256.numel
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  slices_S8x256x1024_o0_0_0_S1x256x1024 : S8x256x1024.Slices ![0, 0, 0] S1x256x1024
  shapeCasts_S1x256x1024_S256x1024 : S1x256x1024.ShapeCasts S256x1024
  slices_S8x256x1024_o1_0_0_S1x256x1024 : S8x256x1024.Slices ![1, 0, 0] S1x256x1024
  slices_S8x256x1024_o2_0_0_S1x256x1024 : S8x256x1024.Slices ![2, 0, 0] S1x256x1024
  slices_S8x256x1024_o3_0_0_S1x256x1024 : S8x256x1024.Slices ![3, 0, 0] S1x256x1024
  slices_S8x256x1024_o4_0_0_S1x256x1024 : S8x256x1024.Slices ![4, 0, 0] S1x256x1024
  slices_S8x256x1024_o5_0_0_S1x256x1024 : S8x256x1024.Slices ![5, 0, 0] S1x256x1024
  slices_S8x256x1024_o6_0_0_S1x256x1024 : S8x256x1024.Slices ![6, 0, 0] S1x256x1024
  slices_S8x256x1024_o7_0_0_S1x256x1024 : S8x256x1024.Slices ![7, 0, 0] S1x256x1024
  concatenates_S1x1024_S1x1024_S1x1024_S1x1024_S1x1024_S1x1024_S1x1024_S1x1024_S8x1024_d0 : Shape.Concatenates [S1x1024, S1x1024, S1x1024, S1x1024, S1x1024, S1x1024, S1x1024, S1x1024] S8x1024 0
  shapeCasts_S8x256_S8x256x1 : S8x256.ShapeCasts S8x256x1
  shapeCasts_S8x1024_S8x1x1024 : S8x1024.ShapeCasts S8x1x1024
  broadcasts_S8x256x1_S8x256x1024 : S8x256x1.Broadcasts S8x256x1024
  broadcasts_S8x1x1024_S8x256x1024 : S8x1x1024.Broadcasts S8x256x1024
  shapeCasts_S64x256x1024_S64x256x32x32 : S64x256x1024.ShapeCasts S64x256x32x32
  dot_S8x256_S128x256_S8x128_1_1_0_0_n_n_wf : DotDims.WF S8x256 S128x256 S8x128 [1] [1] [0] [0] [] []
  dot_S8x128_S256x128_S8x256_1_1_0_0_n_n_wf : DotDims.WF S8x128 S256x128 S8x256 [1] [1] [0] [0] [] []
  dot_S1x256_S256x1024_S1x1024_1_0_0_1_n_n_wf : DotDims.WF S1x256 S256x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1024.size a ≤ S64x256x1024.size a
  hwx0_0 : ∀ i : grid0.Coords, EltTy.bits .f32 = 32 ∨ (Rect.block (s := S64x256x1024) S8x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256x1024.size a ≤ S64x256x1024.size a
  hwx0_4 : ∀ i : grid0.Coords, EltTy.bits .f32 = 32 ∨ (Rect.block (s := S64x256x1024) S8x256x1024.size (cc0_transform_4 i) (hinb0_4 i)).WholeWords (EltTy.packing .f32)

variable [Facts₀]

def dot_S8x256_S128x256_S8x128_1_1_0_0_n_n : DotDims S8x256 S128x256 S8x128 where
  lhsContracting := [1]
  rhsContracting := [1]
  lhsNonContracting := [0]
  rhsNonContracting := [0]
  lhsBatch := []
  rhsBatch := []
  wf := dot_S8x256_S128x256_S8x128_1_1_0_0_n_n_wf
def dot_S8x128_S256x128_S8x256_1_1_0_0_n_n : DotDims S8x128 S256x128 S8x256 where
  lhsContracting := [1]
  rhsContracting := [1]
  lhsNonContracting := [0]
  rhsNonContracting := [0]
  lhsBatch := []
  rhsBatch := []
  wf := dot_S8x128_S256x128_S8x256_1_1_0_0_n_n_wf
def dot_S1x256_S256x1024_S1x1024_1_0_0_1_n_n : DotDims S1x256 S256x1024 S1x1024 where
  lhsContracting := [1]
  rhsContracting := [0]
  lhsNonContracting := [0]
  rhsNonContracting := [1]
  lhsBatch := []
  rhsBatch := []
  wf := dot_S1x256_S256x1024_S1x1024_1_0_0_1_n_n_wf

abbrev win0_0 : Pipeline.Window sig grid0 :=
  Pipeline.Window.ofSpec (Memref.whole main_v0) S8x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8x256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x256x32x32 : Shape := ⟨4, ![64, 256, 32, 32]⟩
abbrev S128x256 : Shape := ⟨2, ![128, 256]⟩
abbrev S256x128 : Shape := ⟨2, ![256, 128]⟩
abbrev S256x1 : Shape := ⟨2, ![256, 1]⟩
abbrev S64x256x1024 : Shape := ⟨3, ![64, 256, 1024]⟩
abbrev S1x256 : Shape := ⟨2, ![1, 256]⟩
abbrev S1x256x1024 : Shape := ⟨3, ![1, 256, 1024]⟩
abbrev S256x1024 : Shape := ⟨2, ![256, 1024]⟩
abbrev S1024x1 : Shape := ⟨2, ![1024, 1]⟩
abbrev S128x1 : Shape := ⟨2, ![128, 1]⟩
abbrev S1x1024 : Shape := ⟨2, ![1, 1024]⟩

abbrev nBuf : Space → Nat
  | .hbm => 8
  | .vmem => 7
  | .smem => 0
  | _ => 0

abbrev bufTy : (tb : Table) → Fin (tcTables nBuf tb) → BufTy
  | .hbm, ⟨0, _⟩ => ⟨S64x256x32x32, .f32⟩
  | .hbm, ⟨1, _⟩ => ⟨S128x256, .f32⟩
  | .hbm, ⟨2, _⟩ => ⟨S256x128, .f32⟩
  | .hbm, ⟨3, _⟩ => ⟨S256x1, .f32⟩
  | .hbm, ⟨4, _⟩ => ⟨S64x256x1024, .f32⟩
  | .hbm, ⟨5, _⟩ => ⟨S1x256, .f32⟩
  | .hbm, ⟨6, _⟩ => ⟨S64x256x1024, .f32⟩
  | .hbm, ⟨7, _⟩ => ⟨S64x256x32x32, .f32⟩
  | .local _ .vmem, ⟨0, _⟩ => ⟨S1x256x1024, .f32⟩
  | .local _ .vmem, ⟨1, _⟩ => ⟨S1x256x1024, .f32⟩
  | .local _ .vmem, ⟨2, _⟩ => ⟨S128x256, .f32⟩
  | .local _ .vmem, ⟨3, _⟩ => ⟨S256x128, .f32⟩
  | .local _ .vmem, ⟨4, _⟩ => ⟨S1x256, .f32⟩
  | .local _ .vmem, ⟨5, _⟩ => ⟨S1x256x1024, .f32⟩
  | .local _ .vmem, ⟨6, _⟩ => ⟨S1x256x1024, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x256x32x32_S64x256x1024 : S64x256x32x32.ShapeCasts S64x256x1024
  shapeCasts_S256x1_S1x256 : S256x1.ShapeCasts S1x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S128x256_S128x256_0_0 : ∀ a, (![0, 0] : Fin 2 → Nat) a + S128x256.size a ≤ S128x256.size a
  h_S128x256 : 0 < S128x256.numel
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S256x1_S256x1024 : S256x1.Broadcasts S256x1024
  broadcasts_S1x1024_S256x1024 : S1x1024.Broadcasts S256x1024
  shapeCasts_S256x1024_S1x256x1024 : S256x1024.ShapeCasts S1x256x1024
  shapeCasts_S64x256x1024_S64x256x32x32 : S64x256x1024.ShapeCasts S64x256x32x32
  dot_S256x1024_S1024x1_S256x1_1_0_0_1_n_n_wf : DotDims.WF S256x1024 S1024x1 S256x1 [1] [0] [0] [1] [] []
  dot_S128x256_S256x1_S128x1_1_0_0_1_n_n_wf : DotDims.WF S128x256 S256x1 S128x1 [1] [0] [0] [1] [] []
  dot_S256x128_S128x1_S256x1_1_0_0_1_n_n_wf : DotDims.WF S256x128 S128x1 S256x1 [1] [0] [0] [1] [] []
  dot_S1x256_S256x1024_S1x1024_1_0_0_1_n_n_wf : DotDims.WF S1x256 S256x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S64x256x1024.size a
  hwx0_0 : ∀ i : grid0.Coords, EltTy.bits .f32 = 32 ∨ (Rect.block (s := S64x256x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S64x256x1024.size a
  hwx0_4 : ∀ i : grid0.Coords, EltTy.bits .f32 = 32 ∨ (Rect.block (s := S64x256x1024) S1x256x1024.size (cc0_transform_4 i) (hinb0_4 i)).WholeWords (EltTy.packing .f32)

variable [Facts₀]

def dot_S256x1024_S1024x1_S256x1_1_0_0_1_n_n : DotDims S256x1024 S1024x1 S256x1 where
  lhsContracting := [1]
  rhsContracting := [0]
  lhsNonContracting := [0]
  rhsNonContracting := [1]
  lhsBatch := []
  rhsBatch := []
  wf := dot_S256x1024_S1024x1_S256x1_1_0_0_1_n_n_wf
def dot_S128x256_S256x1_S128x1_1_0_0_1_n_n : DotDims S128x256 S256x1 S128x1 where
  lhsContracting := [1]
  rhsContracting := [0]
  lhsNonContracting := [0]
  rhsNonContracting := [1]
  lhsBatch := []
  rhsBatch := []
  wf := dot_S128x256_S256x1_S128x1_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf
def dot_S1x256_S256x1024_S1x1024_1_0_0_1_n_n : DotDims S1x256 S256x1024 S1x1024 where
  lhsContracting := [1]
  rhsContracting := [0]
  lhsNonContracting := [0]
  rhsNonContracting := [1]
  lhsBatch := []
  rhsBatch := []
  wf := dot_S1x256_S256x1024_S1x1024_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.GateSpec.lean ====
/-
  The concurrent spatial and channel squeeze-and-excite gate as one function of the arrays, index by index, on the
  extended reals.

  For one batch element the activation is a slab s of 256 channels by 1024 positions.  The channel gate of channel c is
  the logistic function of  sum_j (sum_c' (mean-like sum_p s(c',p) * k) * Wsq(j,c')) * Wex(c,j)  with k the literal
  2^-10 kept as its word, and the spatial gate of position p is the logistic function of  sum_c' w(c') * s(c',p).
  The result at (c, p) is  s(c,p) * (channel gate of c + spatial gate of p).  A whole batch is this slab function applied
  to every batch element separately: an entry of batch element b depends on no other batch element, which is why a
  blocking of the batch axis by 8 and a blocking by 1 write the same array.
-/
import Idealize.ShloMosaic.PureOps.Ideal
import Idealize.ShloMosaic.Lib.ValueIdx

noncomputable section

namespace Cert.Scse

open Idealize.ShloMosaic Idealize.ShloMosaic.ValueIdx

/-- The gated slab of one batch element at channel `c` and position `p`. -/
def slab (s : Fin 256 → Fin 1024 → EReal) (wsq : (⟨2, ![128, 256]⟩ : Shape).Idx → EReal)
    (wex : (⟨2, ![256, 128]⟩ : Shape).Idx → EReal) (wrow : (⟨2, ![1, 256]⟩ : Shape).Idx → EReal)
    (c : Fin 256) (p : Fin 1024) : EReal :=
  s c p *
    (Ideal.logistic (∑ j : Fin 128,
        (∑ c' : Fin 256, ((∑ p' : Fin 1024, s c' p') * Ideal.ofBits .f32 0x3A800000#32) * wsq (ix2 j c')) * wex (ix2 c j))
      + Ideal.logistic (∑ c' : Fin 256, wrow (ix2 (0 : Fin 1) c') * s c' p))

/-- The gated activation of a batch of `n` elements: the slab function on each batch element. -/
def gated {n : ℕ} (x : (⟨3, ![n, 256, 1024]⟩ : Shape).Idx → EReal) (wsq : (⟨2, ![128, 256]⟩ : Shape).Idx → EReal)
    (wex : (⟨2, ![256, 128]⟩ : Shape).Idx → EReal) (wrow : (⟨2, ![1, 256]⟩ : Shape).Idx → EReal) :
    (⟨3, ![n, 256, 1024]⟩ : Shape).Idx → EReal :=
  fun i => slab (fun c p => x (ix3 (i 0) c p)) wsq wex wrow (i 1) (i 2)

theorem gated_apply {n : ℕ} (x : (⟨3, ![n, 256, 1024]⟩ : Shape).Idx → EReal) (wsq : (⟨2, ![128, 256]⟩ : Shape).Idx → EReal)
    (wex : (⟨2, ![256, 128]⟩ : Shape).Idx → EReal) (wrow : (⟨2, ![1, 256]⟩ : Shape).Idx → EReal)
    (b : Fin n) (c : Fin 256) (p : Fin 1024) :
    gated x wsq wex wrow (ix3 b c p) = slab (fun c' p' => x (ix3 b c' p')) wsq wex wrow c p := rfl

/-- The slab function reads its slab only through its entries. -/
theorem slab_congr {s s' : Fin 256 → Fin 1024 → EReal} (h : ∀ c p, s c p = s' c p)
    (wsq : (⟨2, ![128, 256]⟩ : Shape).Idx → EReal) (wex : (⟨2, ![256, 128]⟩ : Shape).Idx → EReal)
    (wrow : (⟨2, ![1, 256]⟩ : Shape).Idx → EReal) (c : Fin 256) (p : Fin 1024) :
    slab s wsq wex wrow c p = slab s' wsq wex wrow c p := by
  have e : s = s' := funext fun c => funext fun p => h c p
  rw [e]

/-- The whole computation from the argument arrays: the activation with its two spatial axes flattened into the
    1024 positions, the weight column laid out as a row, the gated batch, and the result with the positions unflattened. -/
def outcome (a0 : (⟨4, ![64, 256, 32, 32]⟩ : Shape).Idx → EReal) (a1 : (⟨2, ![128, 256]⟩ : Shape).Idx → EReal)
    (a2 : (⟨2, ![256, 128]⟩ : Shape).Idx → EReal) (a3 : (⟨2, ![256, 1]⟩ : Shape).Idx → EReal)
    (h0 : (⟨4, ![64, 256, 32, 32]⟩ : Shape).ShapeCasts ⟨3, ![64, 256, 1024]⟩)
    (h3 : (⟨2, ![256, 1]⟩ : Shape).ShapeCasts ⟨2, ![1, 256]⟩)
    (ho : (⟨3, ![64, 256, 1024]⟩ : Shape).ShapeCasts ⟨4, ![64, 256, 32, 32]⟩) :
    (⟨4, ![64, 256, 32, 32]⟩ : Shape).Idx → EReal :=
  shapeCast ⟨4, ![64, 256, 32, 32]⟩
    (gated (shapeCast ⟨3, ![64, 256, 1024]⟩ a0 h0) a1 a2 (shapeCast ⟨2, ![1, 256]⟩ a3 h3)) ho

end Cert.Scse

end
-- ==== Proof.LibDense.lean ====
/-
  The operations of a dense layer read at one entry, at the ideal values, each stated at an index written by its
  coordinates and generic in the extents:
  a plain matrix product (the kernel's product into the zero splat, whatever the operands' storage formats, and the
  host's dot product) as the sum over the contracted coordinate; a block of rows sliced out of a matrix; two or
  three matrices joined side by side along the columns; a vector laid out as a one-row matrix and that row repeated
  down the rows; a scalar repeated over a whole array; and a finite sum over `Fin r` cut into consecutive blocks.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-! ## Plain matrix products -/

section Products
variable {m k n : ℕ} (w : DotDims.WF ⟨2, ![m, k]⟩ ⟨2, ![k, n]⟩ ⟨2, ![m, n]⟩ [1] [0] [0] [1] [] [])

/-- The left operand's index of a plain product at output entry (a, b) and contracted coordinate c is (a, c). -/
theorem plain_lhsIdx (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index of a plain product at output entry (a, b) and contracted coordinate c is (c, b). -/
theorem plain_rhsIdx (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A product of an m×k by a k×n matrix accumulated into the zero splat, whatever formats the operands are stored
    in, read at entry (a, b): the sum over the contracted coordinate. -/
theorem matmul_plain_apply {φ₁ φ₂ : FTy} (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

/-- The host's dot product of an m×k by a k×n matrix read at entry (a, b): the same sum. -/
theorem hostDot_plain_apply {φ₁ φ₂ : FTy} (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none .single A B (ix2 a b) = _
  rw [Ideal.dotGeneral_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

end Products

/-! ## Layout -/

section Layout
variable {α : Type}

/-- Rows o … o + c - 1 of an a×b matrix, read at (i, j): the matrix at (o + i, j). -/
theorem sliceRows_apply {a b c : ℕ} (o : ℕ) (x : (⟨2, ![a, b]⟩ : Shape).Idx → α)
    (h : (⟨2, ![a, b]⟩ : Shape).Slices ![o, 0] ⟨2, ![c, b]⟩) (i : Fin c) (j : Fin b) (ho : o + i.val < a) :
    extractStridedSlice ⟨2, ![c, b]⟩ ![o, 0] x h (ix2 i j) = x (ix2 ⟨o + i.val, ho⟩ j) :=
  extractStridedSlice_apply _ x h _ _ fun ax => match ax with
    | ⟨0, _⟩ => rfl
    | ⟨1, _⟩ => (Nat.zero_add _).symm

/-- Two matrices side by side: a column of the first. -/
theorem concatCols2_left {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin p) (hc : c.val < r) :
    concatenate ⟨2, ![n, r]⟩ 1 [⟨⟨2, ![n, p]⟩, x₁⟩, ⟨⟨2, ![n, q]⟩, x₂⟩] h (ix2 e ⟨c.val, hc⟩) = x₁ (ix2 e c) :=
  concatenate_pair_apply_left 1 x₁ x₂ h _ rfl _ fun b => match b with
    | ⟨0, _⟩ => rfl
    | ⟨1, _⟩ => rfl

/-- Two matrices side by side: a column of the second sits p columns to the right. -/
theorem concatCols2_right {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin q) (hc : p + c.val < r) :
    concatenate ⟨2, ![n, r]⟩ 1 [⟨⟨2, ![n, p]⟩, x₁⟩, ⟨⟨2, ![n, q]⟩, x₂⟩] h (ix2 e ⟨p + c.val, hc⟩) = x₂ (ix2 e c) :=
  concatenate_pair_apply_right 1 x₁ x₂ h _ rfl rfl _
    (fun b hb => match b with
      | ⟨0, _⟩ => rfl
      | ⟨1, _⟩ => absurd rfl hb)
    (Nat.add_comm _ _)

/-- A vector laid out as a one-row matrix. -/
theorem bcastRow_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) :=
  broadcastInDim_apply _ h v _ _ fun ax => match ax with
    | ⟨0, _⟩ => by
      show j.val = if b = 1 then 0 else j.val
      split
      · have := j.isLt; omega
      · rfl

/-- A one-row matrix repeated down the rows. -/
theorem bcastRows_apply {a b : ℕ} (v : (⟨2, ![1, b]⟩ : Shape).Idx → α)
    (h : (⟨2, ![1, b]⟩ : Shape).BroadcastsInDim ⟨2, ![a, b]⟩ ![0, 1]) (p : Fin a) (j : Fin b) :
    broadcastInDim ⟨2, ![a, b]⟩ ![0, 1] h v (ix2 p j) = v (ix2 (0 : Fin 1) j) :=
  broadcastInDim_apply _ h v _ _ fun ax => match ax with
    | ⟨0, _⟩ => rfl
    | ⟨1, _⟩ => by
      show j.val = if b = 1 then 0 else j.val
      split
      · have := j.isLt; omega
      · rfl

/-- A scalar repeated over a whole array. -/
theorem bcastScalar_apply {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

end Layout

/-! ## A finite sum cut into consecutive blocks -/

section Sums
variable {M : Type} [AddCommMonoid M]

/-- A sum over r = p + q indices is the sum over the first p plus the sum over the last q. -/
theorem sum_split2 {p q r : ℕ} (hr : p + q = r) (f : Fin r → M) :
    ∑ c : Fin r, f c
      = ∑ c : Fin p, f ⟨c.val, by have := c.isLt; omega⟩ + ∑ c : Fin q, f ⟨p + c.val, by have := c.isLt; omega⟩ := by
  subst hr
  rw [Fin.sum_univ_add]
  rfl

/-- A sum over r = p + q + s indices in three consecutive blocks. -/
theorem sum_split3 {p q s r : ℕ} (hr : p + q + s = r) (f : Fin r → M) :
    ∑ c : Fin r, f c
      = (∑ c : Fin p, f ⟨c.val, by have := c.isLt; omega⟩ + ∑ c : Fin q, f ⟨p + c.val, by have := c.isLt; omega⟩)
        + ∑ c : Fin s, f ⟨p + q + c.val, by have := c.isLt; omega⟩ := by
  subst hr
  rw [Fin.sum_univ_add, Fin.sum_univ_add]
  rfl

end Sums

end Cert.Dense

end
-- ==== Proof.LibTileOps.lean ====
/-
  Three vector operations read at one entry, at the ideal values, beside those of the column-reduction file:
  a matrix product whose right factor is given transposed (both operands contracted along their columns),
  accumulated into the zero splat, as the sum over the contracted coordinate; the sum along the one row of a
  1 x n matrix; and a 1 x 1 matrix broadcast to a x b.  Each lemma is stated at an index written by its coordinates.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.TileOps

open Idealize.ShloMosaic Idealize.ShloMosaic.ValueIdx

/-- A product of an m×k matrix with the transpose of an n×k matrix (both contracted along their second coordinate),
    accumulated into the zero splat, read at entry (a, b): the sum over the contracted coordinate. -/
theorem matmul_nt_apply {m k n : ℕ} {φ₁ φ₂ : FTy}
    (w : DotDims.WF ⟨2, ![m, k]⟩ ⟨2, ![n, k]⟩ ⟨2, ![m, n]⟩ [1] [1] [0] [0] [] [])
    (A : FVec Ideal ⟨2, ![m, k]⟩ φ₁) (B : FVec Ideal ⟨2, ![n, k]⟩ φ₂) (a : Fin m) (b : Fin n) :
    matmul (⟨[1], [1], [0], [0], [], [], w⟩ : DotDims ⟨2, ![m, k]⟩ ⟨2, ![n, k]⟩ ⟨2, ![m, n]⟩) none A B
        (constant ⟨2, ![m, n]⟩ .f32 0x00000000#32) (ix2 a b)
      = ∑ c : Fin k, A (ix2 a c) * B (ix2 b c) := by
  show FloatOps.matmul _ none A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The source index over the one row with column `c` inserted is (0, c). -/
theorem lift_row {n : ℕ} (h : Shape.Reduces ⟨2, ![1, n]⟩ [1] ⟨1, ![1]⟩) (u : Fin 1) (c : Fin n) :
    h.lift (ix1 u) c = ix2 (0 : Fin 1) c := by
  funext ax; apply Fin.ext
  match ax with
  | ⟨0, _⟩ => show u.val = 0; omega
  | ⟨1, _⟩ => rfl

/-- The sum along the one row of a 1×n matrix, accumulated from the zero word. -/
theorem rowSum_apply {n : ℕ} (src : FVec Ideal ⟨2, ![1, n]⟩ .f32) (h : Shape.Reduces ⟨2, ![1, n]⟩ [1] ⟨1, ![1]⟩)
    (hφ : FKind.Formats .f32) (hacc : (0x00000000#32 : BitVec 32) = 0x00000000#32) (u : Fin 1) :
    multiReduction .add [1] ⟨1, ![1]⟩ src 0x00000000#32 h hφ hacc (ix1 u) = ∑ c : Fin n, src (ix2 (0 : Fin 1) c) := by
  refine (Ideal.multiReduction_add_single src 0x00000000#32 h hφ hacc (ix1 u)).trans ?_
  exact Finset.sum_congr rfl fun c _ => congrArg src (lift_row h u c)

/-- A `[1, 1]` array broadcast to `[a, b]` reads, everywhere, the operand's one entry. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.TileOps

end
-- ==== Proof.LibCasts3.lean ====
/-
  Rank-3 re-layouts read at an index written by its coordinates, generic in the extents and the element type:
  the two leading axes of an [a, b, c] array merged into one of extent n = a·b and split back (a row-major reshape
  keeps the position (r·b + u)·c + q), and the three ways a rank-3 array with unit axes is repeated over [a, b, c]:
  along the middle axis, along the leading axis, and along both.
-/
import Idealize.ShloMosaic.Lib.ValueIdx
import Idealize.ShloMosaic.Lib.ValueLayout
import Idealize.ShloMosaic.Lib.Pipeline.Value

noncomputable section

namespace Cert.Casts3

open Idealize.ShloMosaic Idealize.ShloMosaic.ValueIdx

variable {α : Type}

/-- An [a, b, c] array cast to [n, c] with n = a·b reads, at row k = r·b + u and column q, the operand at (r, u, q). -/
theorem merge_apply {a b c n : ℕ} (x : (⟨3, ![a, b, c]⟩ : Shape).Idx → α)
    (h : (⟨3, ![a, b, c]⟩ : Shape).ShapeCasts ⟨2, ![n, c]⟩) (r : Fin a) (u : Fin b) (k : Fin n)
    (hk : k.val = r.val * b + u.val) (q : Fin c) :
    shapeCast ⟨2, ![n, c]⟩ x h (ix2 k q) = x (ix3 r u q) :=
  shapeCast_apply x h _ _ (by
    rw [Shape.rowMajor_val_three, Shape.rowMajor_val_two]
    show (r.val * b + u.val) * c + q.val = k.val * c + q.val
    rw [hk])

/-- An [n, c] array with n = a·b cast to [a, b, c] reads, at (r, u, q), the operand at row k = r·b + u and column q. -/
theorem split_apply {a b c n : ℕ} (x : (⟨2, ![n, c]⟩ : Shape).Idx → α)
    (h : (⟨2, ![n, c]⟩ : Shape).ShapeCasts ⟨3, ![a, b, c]⟩) (r : Fin a) (u : Fin b) (k : Fin n)
    (hk : k.val = r.val * b + u.val) (q : Fin c) :
    shapeCast ⟨3, ![a, b, c]⟩ x h (ix3 r u q) = x (ix2 k q) :=
  shapeCast_apply x h _ _ (by
    rw [Shape.rowMajor_val_two, Shape.rowMajor_val_three]
    show k.val * c + q.val = (r.val * b + u.val) * c + q.val
    rw [hk])

/-- An [a, 1, c] array repeated along its middle axis reads, at (r, u, q), the operand at (r, 0, q). -/
theorem spreadMid_apply {a b c : ℕ} (v : (⟨3, ![a, 1, c]⟩ : Shape).Idx → α)
    (h : (⟨3, ![a, 1, c]⟩ : Shape).Broadcasts ⟨3, ![a, b, c]⟩) (r : Fin a) (u : Fin b) (q : Fin c) :
    broadcastTo ⟨3, ![a, b, c]⟩ v h (ix3 r u q) = v (ix3 r (0 : Fin 1) q) := by
  refine broadcastTo_apply v h (ix3 r u q) (ix3 r (0 : Fin 1) q) fun ax => ?_
  match ax with
  | ⟨0, _⟩ =>
    show r.val = if a = 1 then 0 else r.val
    split
    · have := r.isLt; omega
    · rfl
  | ⟨1, _⟩ => rfl
  | ⟨2, _⟩ =>
    show q.val = if c = 1 then 0 else q.val
    split
    · have := q.isLt; omega
    · rfl

/-- A [1, b, c] array repeated along its leading axis reads, at (r, u, q), the operand at (0, u, q). -/
theorem spreadLead_apply {a b c : ℕ} (v : (⟨3, ![1, b, c]⟩ : Shape).Idx → α)
    (h : (⟨3, ![1, b, c]⟩ : Shape).Broadcasts ⟨3, ![a, b, c]⟩) (r : Fin a) (u : Fin b) (q : Fin c) :
    broadcastTo ⟨3, ![a, b, c]⟩ v h (ix3 r u q) = v (ix3 (0 : Fin 1) u q) := by
  refine broadcastTo_apply v h (ix3 r u q) (ix3 (0 : Fin 1) u q) fun ax => ?_
  match ax with
  | ⟨0, _⟩ => rfl
  | ⟨1, _⟩ =>
    show u.val = if b = 1 then 0 else u.val
    split
    · have := u.isLt; omega
    · rfl
  | ⟨2, _⟩ =>
    show q.val = if c = 1 then 0 else q.val
    split
    · have := q.isLt; omega
    · rfl

/-- A [1, 1, c] array repeated along both leading axes reads, at (r, u, q), the operand at (0, 0, q). -/
theorem spreadBoth_apply {a b c : ℕ} (v : (⟨3, ![1, 1, c]⟩ : Shape).Idx → α)
    (h : (⟨3, ![1, 1, c]⟩ : Shape).Broadcasts ⟨3, ![a, b, c]⟩) (r : Fin a) (u : Fin b) (q : Fin c) :
    broadcastTo ⟨3, ![a, b, c]⟩ v h (ix3 r u q) = v (ix3 (0 : Fin 1) (0 : Fin 1) q) := by
  refine broadcastTo_apply v h (ix3 r u q) (ix3 (0 : Fin 1) (0 : Fin 1) q) fun ax => ?_
  match ax with
  | ⟨0, _⟩ => rfl
  | ⟨1, _⟩ => rfl
  | ⟨2, _⟩ =>
    show q.val = if c = 1 then 0 else q.val
    split
    · have := q.isLt; omega
    · rfl

end Cert.Casts3

end
-- ==== Proof.KernelPay.lean ====
/-
  The kernel body's stored value read at one entry.

  The body works on a block of 8 batch elements.  Its channel gate is a lane sum over the positions, a scaling, two
  matrix products with the weight matrices given transposed, and the logistic function; its spatial gate is, batch
  element by batch element, the product of the weight row with that element's slab, the eight rows stacked, then the
  logistic function.  Read at the entry (b, c, p) all of it only looks at batch element b of the block, and is the
  slab function of that element.
-/
import proofs.«154778_g2000106105083958_pallasbulk_797_12_alg».proof.Proof.Gen.KernelIdeal.Skeleton
import proofs.«154778_g2000106105083958_pallasbulk_797_12_alg».proof.Proof.GateSpec
import proofs.«154778_g2000106105083958_pallasbulk_797_12_alg».proof.Proof.LibDense
import proofs.«154778_g2000106105083958_pallasbulk_797_12_alg».proof.Proof.LibTileOps
import proofs.«154778_g2000106105083958_pallasbulk_797_12_alg».proof.Proof.LibCasts3
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx
open Cert.KernelIdeal Cert.KernelIdeal.Gen

/-- The identity cast of the loaded block. -/
theorem pay2_eq (x0 : Vec Ideal S8x256x1024 .f32) : k0_pay2 (F := Ideal) x0 = x0 := by
  unfold k0_pay2
  exact shapeCast_self _ _

/-- The lane sum over the positions at (b, c). -/
theorem laneSum_apply (x : FVec Ideal S8x256x1024 .f32) (h : S8x256x1024.Reduces [2] S8x256) (hφ : FKind.Formats .f32)
    (hacc : (0x00000000#32 : BitVec 32) = FKind.add.neutral .f32 hφ) (b : Fin 8) (c : Fin 256) :
    multiReduction (F := Ideal) .add [2] S8x256 x 0x00000000#32 h hφ hacc (ix2 b c) = ∑ p : Fin 1024, x (ix3 b c p) := by
  refine (Ideal.multiReduction_add_single x 0x00000000#32 h hφ hacc (ix2 b c)).trans ?_
  refine Finset.sum_congr rfl fun p _ => congrArg x ?_
  funext ax; apply Fin.ext
  match ax with
  | ⟨0, _⟩ => rfl
  | ⟨1, _⟩ => rfl
  | ⟨2, _⟩ => rfl

/-- The first product, rows of the scaled sums against rows of the squeeze weights. -/
theorem squeeze_apply (A : FVec Ideal S8x256 .f32) (B : FVec Ideal S128x256 .f32) (b : Fin 8) (j : Fin 128) :
    matmul (F := Ideal) dot_S8x256_S128x256_S8x128_1_1_0_0_n_n none A B (constant S8x128 .f32 0x00000000#32) (ix2 b j)
      = ∑ c : Fin 256, A (ix2 b c) * B (ix2 j c) :=
  Cert.TileOps.matmul_nt_apply dot_S8x256_S128x256_S8x128_1_1_0_0_n_n_wf A B b j

/-- The second product, rows of the squeezed values against rows of the excitation weights. -/
theorem excite_apply (A : FVec Ideal S8x128 .f32) (B : FVec Ideal S256x128 .f32) (b : Fin 8) (c : Fin 256) :
    matmul (F := Ideal) dot_S8x128_S256x128_S8x256_1_1_0_0_n_n none A B (constant S8x256 .f32 0x00000000#32) (ix2 b c)
      = ∑ j : Fin 128, A (ix2 b j) * B (ix2 c j) :=
  Cert.TileOps.matmul_nt_apply dot_S8x128_S256x128_S8x256_1_1_0_0_n_n_wf A B b c

/-- The channel gate at (b, c). -/
theorem pay3_apply (x0 : Vec Ideal S8x256x1024 .f32) (x1 : Vec Ideal S128x256 .f32) (x2 : Vec Ideal S256x128 .f32)
    (b : Fin 8) (c : Fin 256) :
    k0_pay3 (F := Ideal) x0 x1 x2 (ix2 b c)
      = Ideal.logistic (∑ j : Fin 128,
          (∑ c' : Fin 256, ((∑ p' : Fin 1024, x0 (ix3 b c' p')) * Ideal.ofBits .f32 0x3A800000#32) * x1 (ix2 j c')) * x2 (ix2 c j)) := by
  unfold k0_pay3
  rw [pay2_eq]
  show Ideal.logistic _ = Ideal.logistic _
  refine congrArg Ideal.logistic ?_
  refine (excite_apply _ _ b c).trans ?_
  refine Finset.sum_congr rfl fun j _ => ?_
  refine congrArg (· * x2 (ix2 c j)) ?_
  refine (squeeze_apply _ _ b j).trans ?_
  refine Finset.sum_congr rfl fun c' _ => ?_
  refine congrArg (· * x1 (ix2 j c')) ?_
  show _ * _ = _
  refine congrArg (· * Ideal.ofBits .f32 0x3A800000#32) ?_
  exact laneSum_apply _ _ _ _ b c'

/-- The weight row times the slab of batch element `o` of the block, at position `p`: the sum over the channels. -/
theorem qrow_apply (x0 : FVec Ideal S8x256x1024 .f32) (x3 : FVec Ideal S1x256 .f32) (o : ℕ) (ho : o < 8)
    (hs : S8x256x1024.Slices ![o, 0, 0] S1x256x1024) (hc : S1x256x1024.ShapeCasts S256x1024)
    (hc3 : S1x256.ShapeCasts S1x256) (u : Fin 1) (p : Fin 1024) :
    matmul (F := Ideal) dot_S1x256_S256x1024_S1x1024_1_0_0_1_n_n none (shapeCast S1x256 x3 hc3)
        (shapeCast S256x1024 (extractStridedSlice S1x256x1024 ![o, 0, 0] x0 hs) hc)
        (constant S1x1024 .f32 0x00000000#32) (ix2 u p)
      = ∑ c' : Fin 256, x3 (ix2 (0 : Fin 1) c') * x0 (ix3 ⟨o, ho⟩ c' p) := by
  refine (Cert.Dense.matmul_plain_apply dot_S1x256_S256x1024_S1x1024_1_0_0_1_n_n_wf _ _ u p).trans ?_
  refine Finset.sum_congr rfl fun c' _ => ?_
  rw [shapeCast_self]
  have hu : u = 0 := Subsingleton.elim _ _
  subst hu
  refine congrArg (x3 (ix2 (0 : Fin 1) c') * ·) ?_
  refine (Cert.Casts3.merge_apply _ hc (0 : Fin 1) c' c' (by simp) p).trans ?_
  refine extractStridedSlice_apply _ _ hs _ _ fun ax => ?_
  match ax with
  | ⟨0, _⟩ => rfl
  | ⟨1, _⟩ => exact (Nat.zero_add _).symm
  | ⟨2, _⟩ => exact (Nat.zero_add _).symm

/-- Eight one-row pieces stacked along the rows: row `b` of the stack is piece `b`. -/
theorem stack8_apply {α : Type} (r0 r1 r2 r3 r4 r5 r6 r7 : S1x1024.Idx → α)
    (h : Shape.Concatenates (([⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] : List ((s : Shape) × (s.Idx → α))).map (·.1)) S8x1024 0)
    (b : Fin 8) (p : Fin 1024) :
    concatenate S8x1024 0 [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] h (ix2 b p)
      = (![r0, r1, r2, r3, r4, r5, r6, r7] : Fin 8 → S1x1024.Idx → α) b (ix2 (0 : Fin 1) p) := by
  match b with
  | ⟨0, _⟩ =>
    exact concatenate_apply_piece (t := S8x1024) (0 : Fin 2) [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] h _ 0 (by simp) S1x1024 r0 rfl rfl 0 rfl (ix2 (0 : Fin 1) p)
      (fun b' hb => match b' with | ⟨0, _⟩ => absurd rfl hb | ⟨1, _⟩ => rfl) rfl
  | ⟨1, _⟩ =>
    exact concatenate_apply_piece (t := S8x1024) (0 : Fin 2) [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] h _ 1 (by simp) S1x1024 r1 rfl rfl 1 rfl (ix2 (0 : Fin 1) p)
      (fun b' hb => match b' with | ⟨0, _⟩ => absurd rfl hb | ⟨1, _⟩ => rfl) rfl
  | ⟨2, _⟩ =>
    exact concatenate_apply_piece (t := S8x1024) (0 : Fin 2) [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] h _ 2 (by simp) S1x1024 r2 rfl rfl 2 rfl (ix2 (0 : Fin 1) p)
      (fun b' hb => match b' with | ⟨0, _⟩ => absurd rfl hb | ⟨1, _⟩ => rfl) rfl
  | ⟨3, _⟩ =>
    exact concatenate_apply_piece (t := S8x1024) (0 : Fin 2) [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] h _ 3 (by simp) S1x1024 r3 rfl rfl 3 rfl (ix2 (0 : Fin 1) p)
      (fun b' hb => match b' with | ⟨0, _⟩ => absurd rfl hb | ⟨1, _⟩ => rfl) rfl
  | ⟨4, _⟩ =>
    exact concatenate_apply_piece (t := S8x1024) (0 : Fin 2) [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] h _ 4 (by simp) S1x1024 r4 rfl rfl 4 rfl (ix2 (0 : Fin 1) p)
      (fun b' hb => match b' with | ⟨0, _⟩ => absurd rfl hb | ⟨1, _⟩ => rfl) rfl
  | ⟨5, _⟩ =>
    exact concatenate_apply_piece (t := S8x1024) (0 : Fin 2) [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] h _ 5 (by simp) S1x1024 r5 rfl rfl 5 rfl (ix2 (0 : Fin 1) p)
      (fun b' hb => match b' with | ⟨0, _⟩ => absurd rfl hb | ⟨1, _⟩ => rfl) rfl
  | ⟨6, _⟩ =>
    exact concatenate_apply_piece (t := S8x1024) (0 : Fin 2) [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] h _ 6 (by simp) S1x1024 r6 rfl rfl 6 rfl (ix2 (0 : Fin 1) p)
      (fun b' hb => match b' with | ⟨0, _⟩ => absurd rfl hb | ⟨1, _⟩ => rfl) rfl
  | ⟨7, _⟩ =>
    exact concatenate_apply_piece (t := S8x1024) (0 : Fin 2) [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] h _ 7 (by simp) S1x1024 r7 rfl rfl 7 rfl (ix2 (0 : Fin 1) p)
      (fun b' hb => match b' with | ⟨0, _⟩ => absurd rfl hb | ⟨1, _⟩ => rfl) rfl

/-- The spatial gate at (b, p): row b of the stack is the product for batch element b. -/
theorem pay4_apply (x0 : Vec Ideal S8x256x1024 .f32) (x3 : Vec Ideal S1x256 .f32) (b : Fin 8) (p : Fin 1024) :
    k0_pay4 (F := Ideal) x0 x3 (ix2 b p)
      = Ideal.logistic (∑ c' : Fin 256, x3 (ix2 (0 : Fin 1) c') * x0 (ix3 b c' p)) := by
  unfold k0_pay4
  rw [pay2_eq]
  show Ideal.logistic _ = Ideal.logistic _
  refine congrArg Ideal.logistic ?_
  refine (stack8_apply _ _ _ _ _ _ _ _ _ b p).trans ?_
  match b with
  | ⟨0, _⟩ => exact qrow_apply x0 x3 0 (by decide) _ _ _ 0 p
  | ⟨1, _⟩ => exact qrow_apply x0 x3 1 (by decide) _ _ _ 0 p
  | ⟨2, _⟩ => exact qrow_apply x0 x3 2 (by decide) _ _ _ 0 p
  | ⟨3, _⟩ => exact qrow_apply x0 x3 3 (by decide) _ _ _ 0 p
  | ⟨4, _⟩ => exact qrow_apply x0 x3 4 (by decide) _ _ _ 0 p
  | ⟨5, _⟩ => exact qrow_apply x0 x3 5 (by decide) _ _ _ 0 p
  | ⟨6, _⟩ => exact qrow_apply x0 x3 6 (by decide) _ _ _ 0 p
  | ⟨7, _⟩ => exact qrow_apply x0 x3 7 (by decide) _ _ _ 0 p

/-- A gate per (batch element, channel) laid out as a column and repeated along the positions. -/
theorem colSpread_apply {α : Type} (v : S8x256.Idx → α) (hc : S8x256.ShapeCasts S8x256x1)
    (hb : S8x256x1.Broadcasts S8x256x1024) (b : Fin 8) (c : Fin 256) (p : Fin 1024) :
    broadcastTo S8x256x1024 (shapeCast S8x256x1 v hc) hb (ix3 b c p) = v (ix2 b c) := by
  refine (broadcastTo_apply _ hb (ix3 b c p) (ix3 b c (0 : Fin 1)) fun ax => ?_).trans ?_
  · match ax with
    | ⟨0, _⟩ => rfl
    | ⟨1, _⟩ => rfl
    | ⟨2, _⟩ => rfl
  · refine shapeCast_apply v hc _ _ ?_
    rw [Shape.rowMajor_val_two, Shape.rowMajor_val_three]
    show b.val * 256 + c.val = (b.val * 256 + c.val) * 1 + 0
    omega

/-- A gate per (batch element, position) laid out as a row and repeated along the channels. -/
theorem rowSpread_apply {α : Type} (v : S8x1024.Idx → α) (hc : S8x1024.ShapeCasts S8x1x1024)
    (hb : S8x1x1024.Broadcasts S8x256x1024) (b : Fin 8) (c : Fin 256) (p : Fin 1024) :
    broadcastTo S8x256x1024 (shapeCast S8x1x1024 v hc) hb (ix3 b c p) = v (ix2 b p) :=
  (Cert.Casts3.spreadMid_apply _ hb b c p).trans (Cert.Casts3.split_apply v hc b (0 : Fin 1) b (by simp) p)

/-- The stored value from the block and the two gates, at (b, c, p). -/
theorem pay1_apply (v1 : FVec Ideal S8x256x1024 .f32) (v9 : FVec Ideal S8x256 .f32) (v37 : FVec Ideal S8x1024 .f32)
    (b : Fin 8) (c : Fin 256) (p : Fin 1024) :
    k0_pay1 (F := Ideal) v1 v9 v37 (ix3 b c p) = v1 (ix3 b c p) * (v9 (ix2 b c) + v37 (ix2 b p)) := by
  unfold k0_pay1
  show v1 (ix3 b c p) * (_ + _) = _
  rw [colSpread_apply, rowSpread_apply]

/-- The whole body's stored value at (b, c, p): the slab function of batch element b of the block. -/
theorem body_apply (x0 : Vec Ideal S8x256x1024 .f32) (x1 : Vec Ideal S128x256 .f32) (x2 : Vec Ideal S256x128 .f32)
    (x3 : Vec Ideal S1x256 .f32) (b : Fin 8) (c : Fin 256) (p : Fin 1024) :
    k0_pay1 (F := Ideal) (k0_pay2 x0) (k0_pay3 x0 x1 x2) (k0_pay4 x0 x3) (ix3 b c p)
      = Cert.Scse.slab (fun c' p' => x0 (ix3 b c' p')) x1 x2 x3 c p := by
  rw [pay1_apply, pay2_eq, pay3_apply, pay4_apply]
  rfl

/-- A block whose batch element `j 0` is batch element `i 0` of the whole batch, the weights being the whole
    weight arrays, stores at `j` what the gated activation of the whole batch is at `i`, when `i` and `j` have the
    same channel and position. -/
theorem block_eq_gated (X : (⟨3, ![64, 256, 1024]⟩ : Shape).Idx → EReal) (W1 : S128x256.Idx → EReal)
    (W2 : S256x128.Idx → EReal) (W3 : S1x256.Idx → EReal)
    (x0 : Vec Ideal S8x256x1024 .f32) (x1 : Vec Ideal S128x256 .f32) (x2 : Vec Ideal S256x128 .f32) (x3 : Vec Ideal S1x256 .f32)
    (j : S8x256x1024.Idx) (i : (⟨3, ![64, 256, 1024]⟩ : Shape).Idx)
    (h0 : ∀ c' p', x0 (ix3 (j 0) c' p') = X (ix3 (i 0) c' p')) (h1 : x1 = W1) (h2 : x2 = W2) (h3 : x3 = W3)
    (hi1 : (i 1).val = (j 1).val) (hi2 : (i 2).val = (j 2).val) :
    k0_pay1 (F := Ideal) (k0_pay2 x0) (k0_pay3 x0 x1 x2) (k0_pay4 x0 x3) j = Cert.Scse.gated X W1 W2 W3 i := by
  subst h1 h2 h3
  obtain ⟨b, c, p, rfl⟩ : ∃ (b : Fin 8) (c : Fin 256) (p : Fin 1024), j = ix3 b c p := ⟨j 0, j 1, j 2, eq_ix3 j⟩
  obtain ⟨b', c2, p2, rfl⟩ : ∃ (b' : Fin 64) (c2 : Fin 256) (p2 : Fin 1024), i = ix3 b' c2 p2 :=
    ⟨i 0, i 1, i 2, eq_ix3 i⟩
  have e1 : c2 = c := Fin.ext hi1
  have e2 : p2 = p := Fin.ext hi2
  subst e1 e2
  rw [body_apply, Cert.Scse.gated_apply]
  exact Cert.Scse.slab_congr h0 _ _ _ _ _

end Cert.KernelIdeal.Pay

end
-- ==== Proof.KernelValue.lean ====
/-
  The kernel's result array after the region.

  The grid has 8 points; point t stages batch elements 8t … 8t + 7 of the flattened activation and the whole weight
  arrays, and writes back the same 8 batch elements of the result.  Since the body's value at an entry is the slab
  function of that entry's own batch element, what point t writes back is block t of the gated batch of the whole
  arrays, and the 8 blocks tile the result array.
-/
import proofs.«154778_g2000106105083958_pallasbulk_797_12_alg».proof.Proof.Gen.KernelIdeal.Frame
import proofs.«154778_g2000106105083958_pallasbulk_797_12_alg».proof.Proof.KernelPay
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the activation's and the result's block index is the point along the batch
    axis and zero along the others; the weights' blocks are the whole arrays. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The activation's block at point `t` holds batch elements 8t … 8t + 7 of the flattened activation. -/
theorem iblk0_apply (c : Dev nD) (t : Fin cfg0.N) (y : S8x256x1024.Idx) (i : S64x256x1024.Idx)
    (h0 : (i 0).val = t.val * 8 + (y 0).val) (h1 : (i 1).val = (y 1).val) (h2 : (i 2).val = (y 2).val) :
    (iblk m c 0 t : Vec Ideal S8x256x1024 .f32) y = (V m c main_v0 : S64x256x1024.Idx → EReal) i := by
  obtain ⟨e0, e1, e2, -⟩ := idx_facts t
  show V m c main_v0 (((cfg0.win 0).blk t).view.emb y) = V m c main_v0 i
  congr 1
  funext a; apply Fin.ext
  match a with
  | ⟨0, _⟩ => show win0_0.index t (0 : Fin 3) * 8 + 1 * (y 0).val = (i 0).val; rw [e0, h0]; omega
  | ⟨1, _⟩ => show win0_0.index t (1 : Fin 3) * 256 + 1 * (y 1).val = (i 1).val; rw [e1, h1]; omega
  | ⟨2, _⟩ => show win0_0.index t (2 : Fin 3) * 1024 + 1 * (y 2).val = (i 2).val; rw [e2, h2]; omega

/-- The squeeze weights' block is the whole array. -/
theorem iblk1_eq (c : Dev nD) (t : Fin cfg0.N) :
    (iblk m c 1 t : Vec Ideal S128x256 .f32) = (V m c main_arg1 : S128x256.Idx → EReal) := by
  obtain ⟨-, -, -, e0, e1, -⟩ := idx_facts t
  funext y
  show V m c main_arg1 (((cfg0.win 1).blk t).view.emb y) = V m c main_arg1 y
  congr 1
  funext a; apply Fin.ext
  match a with
  | ⟨0, _⟩ => show win0_1.index t (0 : Fin 2) * 128 + 1 * (y 0).val = (y 0).val; rw [e0]; omega
  | ⟨1, _⟩ => show win0_1.index t (1 : Fin 2) * 256 + 1 * (y 1).val = (y 1).val; rw [e1]; omega

/-- The excitation weights' block is the whole array. -/
theorem iblk2_eq (c : Dev nD) (t : Fin cfg0.N) :
    (iblk m c 2 t : Vec Ideal S256x128 .f32) = (V m c main_arg2 : S256x128.Idx → EReal) := by
  obtain ⟨-, -, -, -, -, e0, e1, -⟩ := idx_facts t
  funext y
  show V m c main_arg2 (((cfg0.win 2).blk t).view.emb y) = V m c main_arg2 y
  congr 1
  funext a; apply Fin.ext
  match a with
  | ⟨0, _⟩ => show win0_2.index t (0 : Fin 2) * 256 + 1 * (y 0).val = (y 0).val; rw [e0]; omega
  | ⟨1, _⟩ => show win0_2.index t (1 : Fin 2) * 128 + 1 * (y 1).val = (y 1).val; rw [e1]; omega

/-- The spatial weight row's block is the whole row. -/
theorem iblk3_eq (c : Dev nD) (t : Fin cfg0.N) :
    (iblk m c 3 t : Vec Ideal S1x256 .f32) = (V m c main_v1 : S1x256.Idx → EReal) := by
  obtain ⟨-, -, -, -, -, -, -, e0, e1, -⟩ := idx_facts t
  funext y
  show V m c main_v1 (((cfg0.win 3).blk t).view.emb y) = V m c main_v1 y
  congr 1
  funext a; apply Fin.ext
  match a with
  | ⟨0, _⟩ => show win0_3.index t (0 : Fin 2) * 1 + 1 * (y 0).val = (y 0).val; rw [e0]; omega
  | ⟨1, _⟩ => show win0_3.index t (1 : Fin 2) * 256 + 1 * (y 1).val = (y 1).val; rw [e1]; omega

/-- The gated batch of the arrays as the region finds them. -/
abbrev target (c : Dev nD) : S64x256x1024.Idx → EReal :=
  Cert.Scse.gated (n := 64) (V m c main_v0 : S64x256x1024.Idx → EReal) (V m c main_arg1 : S128x256.Idx → EReal)
    (V m c main_arg2 : S256x128.Idx → EReal) (V m c main_v1 : S1x256.Idx → EReal)

/-- What point `t` writes back is block `t` of the gated batch. -/
theorem flushed_eq (c : Dev nD) (t : Fin cfg0.N) :
    (dats m 0 c).flushed 4 t = ((cfg0.win 4).blk t).view.read (Elt Ideal) (target m c) := by
  show (cfg0.win 4).cut (grid0.coords t) ((dats m 0 c).after 4 t) = _
  rw [after0_4]
  unfold out0_4
  rw [View.canon_unit_zero hz3]
  simp only [View.ld_unit_zero (S := S8x256x1024) hz3, View.ld_unit_zero (S := S128x256) hz2,
    View.ld_unit_zero (S := S256x128) hz2, View.ld_unit_zero (S := S1x256) hz2]
  obtain ⟨-, -, -, -, -, -, -, -, -, e0, e1, e2⟩ := idx_facts t
  funext j
  refine Cert.KernelIdeal.Pay.block_eq_gated (V m c main_v0 : S64x256x1024.Idx → EReal) (V m c main_arg1 : S128x256.Idx → EReal)
    (V m c main_arg2 : S256x128.Idx → EReal) (V m c main_v1 : S1x256.Idx → EReal)
    (iblk m c 0 t) (iblk m c 1 t) (iblk m c 2 t) (iblk m c 3 t) j (((cfg0.win 4).blk t).view.emb j)
    (fun c' p' => ?_) (iblk1_eq m c t) (iblk2_eq m c t) (iblk3_eq m c t) ?_ ?_
  · refine iblk0_apply m c t (ix3 (j 0) c' p') _ ?_ rfl rfl
    show win0_4.index t (0 : Fin 3) * 8 + 1 * (j 0).val = t.val * 8 + (j 0).val
    rw [e0]; omega
  · show win0_4.index t (1 : Fin 3) * 256 + 1 * (j 1).val = (j 1).val
    rw [e1]; omega
  · show win0_4.index t (2 : Fin 3) * 1024 + 1 * (j 2).val = (j 2).val
    rw [e2]; omega

/-- An index of the result array is in point `t`'s block iff each coordinate is in the block's range on its axis. -/
theorem mem_blk (t : Fin cfg0.N) (i : S64x256x1024.Idx) :
    i ∈ ((cfg0.win 4).blk t).view.set ↔ ∀ a : Fin 3, win0_4.index t a * S8x256x1024.size a ≤ (i a).val
      ∧ (i a).val < win0_4.index t a * S8x256x1024.size a + S8x256x1024.size a := by
  show i ∈ ((View.whole main_v2).slice (win0_4.rect t)).set ↔ _
  rw [View.set_slice_whole, Rect.mem_set_unit]
  exact Iff.rfl

/-- Every index of the result array is in the block of the point that holds its batch element. -/
theorem cover (i : S64x256x1024.Idx) :
    ∃ t : Fin cfg0.N, (cfg0.win 4).flush t = true ∧ i ∈ ((cfg0.win 4).blk t).view.set := by
  have h0 : (i 0).val < 64 := (i 0).isLt
  have h1 : (i 1).val < 256 := (i 1).isLt
  have h2 : (i 2).val < 1024 := (i 2).isLt
  have hN : cfg0.N = 8 := N_0
  refine ⟨⟨(i 0).val / 8, by rw [hN]; omega⟩, flush0_4 _, ?_⟩
  rw [mem_blk]
  obtain ⟨-, -, -, -, -, -, -, -, -, e0, e1, e2⟩ := idx_facts ⟨(i 0).val / 8, by rw [hN]; omega⟩
  intro a
  match a with
  | ⟨0, _⟩ =>
    show win0_4.index _ (0 : Fin 3) * 8 ≤ (i 0).val ∧ (i 0).val < win0_4.index _ (0 : Fin 3) * 8 + 8
    rw [e0]; show (i 0).val / 8 * 8 ≤ (i 0).val ∧ (i 0).val < (i 0).val / 8 * 8 + 8; omega
  | ⟨1, _⟩ =>
    show win0_4.index _ (1 : Fin 3) * 256 ≤ (i 1).val ∧ (i 1).val < win0_4.index _ (1 : Fin 3) * 256 + 256
    rw [e1]; omega
  | ⟨2, _⟩ =>
    show win0_4.index _ (2 : Fin 3) * 1024 ≤ (i 2).val ∧ (i 2).val < win0_4.index _ (2 : Fin 3) * 1024 + 1024
    rw [e2]; omega

/-- The result array after the region: the gated batch of the arrays the region found. -/
theorem final (c : Dev nD) : (dats m 0 c).arrAt 4 cfg0.N = target m c :=
  (dats m 0 c).arrAt_eq_of_cover 4 (target m c) (fun t _ => flushed_eq m c t) (cover)

/-! ## The host lines around the region -/

/-- The region finds the activation with its two spatial axes flattened. -/
theorem V_v0 (c : Dev nD) : (V m c main_v0 : S64x256x1024.Idx → EReal)
    = shapeCast S64x256x1024 (m ((c : Thread nD τ).loc main_arg0) : S64x256x32x32.Idx → EReal)
        shapeCasts_S64x256x32x32_S64x256x1024 := by
  show StableHlo.after hostOps0 (fun b => m (c, b)) (Proc.devRef .tc main_v0) = _
  after_results
  rfl

/-- The region finds the spatial weight column laid out as a row. -/
theorem V_v1 (c : Dev nD) : (V m c main_v1 : S1x256.Idx → EReal)
    = shapeCast S1x256 (m ((c : Thread nD τ).loc main_arg3) : S256x1.Idx → EReal) shapeCasts_S256x1_S1x256 := by
  show StableHlo.after hostOps0 (fun b => m (c, b)) (Proc.devRef .tc main_v1) = _
  after_results
  rfl

/-- The line after the region unflattens the positions of the result array. -/
theorem tail_v3 (c : Dev nD) :
    (Pipeline.afterTail₀ cfgs (dats m) 0 (V0 m) [hostOps1] c main_v3 : S64x256x32x32.Idx → EReal)
      = shapeCast S64x256x32x32 ((dats m 0 c).arrAt 4 cfg0.N : S64x256x1024.Idx → EReal)
          shapeCasts_S64x256x1024_S64x256x32x32 := by
  unfold Pipeline.afterTail₀
  show StableHlo.after hostOps1 _ (Proc.devRef .tc main_v3) = _
  after_results
  rw [show Pipeline.withArrays spec0 c (V0 m c) (fun w => (dats m 0 c).arrAt w cfg0.N) (Proc.devRef .tc main_v2)
      = (dats m 0 c).arrAt 4 cfg0.N from Pipeline.withArrays_arr spec0 launch0.win.arr_inj c _ _ 4]
  rfl

/-- The program's result from its arguments. -/
theorem result_eq (c : Dev nD) :
    (Pipeline.afterTail₀ cfgs (dats m) 0 (V0 m) [hostOps1] c main_v3 : S64x256x32x32.Idx → EReal)
      = Cert.Scse.outcome (m ((c : Thread nD τ).loc main_arg0)) (m ((c : Thread nD τ).loc main_arg1))
          (m ((c : Thread nD τ).loc main_arg2)) (m ((c : Thread nD τ).loc main_arg3))
          shapeCasts_S64x256x32x32_S64x256x1024 shapeCasts_S256x1_S1x256 shapeCasts_S64x256x1024_S64x256x32x32 := by
  rw [tail_v3, final]
  dsimp only [target]
  rw [V_v0, V_v1, V_main_arg1, V_main_arg2]
  rfl

/-- The run, read: the result at the gated batch of the arguments, the arguments unchanged. -/
theorem run : θ_run defs (onTc (τ := τ) (main (F := Ideal))) ⟨m, fun _ => 0, ρ⟩ fun r => ∀ c : Dev nD,
      r.2.mem ((c.tc : Thread nD τ).loc main_v3)
        = Cert.Scse.outcome (m ((c : Thread nD τ).loc main_arg0)) (m ((c : Thread nD τ).loc main_arg1))
            (m ((c : Thread nD τ).loc main_arg2)) (m ((c : Thread nD τ).loc main_arg3))
            shapeCasts_S64x256x32x32_S64x256x1024 shapeCasts_S256x1_S1x256 shapeCasts_S64x256x1024_S64x256x32x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (result_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c))⟩)
    (run_main m ρ)

end Cert.KernelIdeal.Hand

end
-- ==== Proof.RefPay.lean ====
/-
  The reference body's stored value read at one entry.

  The reference works on one batch element at a time: its block is a [1, 256, 1024] slab viewed as a 256 by 1024 matrix.
  It takes the sum over the positions as a product with a column of ones, scales it, multiplies by the two weight
  matrices from the left (columns as vectors), and applies the logistic function; the spatial gate is the weight row
  times the slab.  Read at the entry (0, c, p) this is the slab function of that batch element, after three
  rearrangements that hold for all extended reals: a product with the number one is the factor itself, and the two
  factors of each product inside the sums may be exchanged.
-/
import proofs.«154778_g2000106105083958_pallasbulk_797_12_alg».proof.Proof.Gen.ReferenceIdeal.Skeleton
import proofs.«154778_g2000106105083958_pallasbulk_797_12_alg».proof.Proof.GateSpec
import proofs.«154778_g2000106105083958_pallasbulk_797_12_alg».proof.Proof.LibDense
import proofs.«154778_g2000106105083958_pallasbulk_797_12_alg».proof.Proof.LibCasts3
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Pay

open Idealize.ShloMosaic Idealize.ShloMosaic.ValueIdx
open Cert.ReferenceIdeal Cert.ReferenceIdeal.Gen

/-- A column of gates repeated along the positions. -/
theorem colSpread_apply {α : Type} (v : S256x1.Idx → α) (hb : S256x1.Broadcasts S256x1024) (c : Fin 256) (p : Fin 1024) :
    broadcastTo S256x1024 v hb (ix2 c p) = v (ix2 c (0 : Fin 1)) := by
  refine broadcastTo_apply v hb (ix2 c p) (ix2 c (0 : Fin 1)) fun ax => ?_
  match ax with
  | ⟨0, _⟩ => rfl
  | ⟨1, _⟩ => rfl

/-- A row of gates repeated along the channels. -/
theorem rowSpread_apply {α : Type} (v : S1x1024.Idx → α) (hb : S1x1024.Broadcasts S256x1024) (c : Fin 256) (p : Fin 1024) :
    broadcastTo S256x1024 v hb (ix2 c p) = v (ix2 (0 : Fin 1) p) := by
  refine broadcastTo_apply v hb (ix2 c p) (ix2 (0 : Fin 1) p) fun ax => ?_
  match ax with
  | ⟨0, _⟩ => rfl
  | ⟨1, _⟩ => rfl

/-- The slab as a matrix: the block's one batch element. -/
theorem asMatrix_apply {α : Type} (x0 : S1x256x1024.Idx → α) (h : S1x256x1024.ShapeCasts S256x1024) (u : Fin 1)
    (c : Fin 256) (p : Fin 1024) : shapeCast S256x1024 x0 h (ix2 c p) = x0 (ix3 u c p) :=
  Cert.Casts3.merge_apply x0 h u c c (by have := u.isLt; omega) p

/-- The sum over the positions taken as a product with a column of ones. -/
theorem onesSum_apply (A : FVec Ideal S256x1024 .f32) (c : Fin 256) (z : Fin 1) :
    matmul (F := Ideal) dot_S256x1024_S1024x1_S256x1_1_0_0_1_n_n none A
        (broadcast S1024x1 (Scalar.ofBits (F := Ideal) .f32 0x3F800000#32)) (constant S256x1 .f32 0x00000000#32) (ix2 c z)
      = ∑ p : Fin 1024, A (ix2 c p) := by
  refine (Cert.Dense.matmul_plain_apply dot_S256x1024_S1024x1_S256x1_1_0_0_1_n_n_wf _ _ c z).trans ?_
  refine Finset.sum_congr rfl fun p _ => ?_
  show A (ix2 c p) * Ideal.ofBits .f32 0x3F800000#32 = _
  rw [Ideal.ofBits_one_f32, mul_one]

/-- The channel gate of channel `c`, in the reference's order of factors. -/
theorem chanGate_apply (v1 : FVec Ideal S256x1024 .f32) (x1 : FVec Ideal S128x256 .f32) (x2 : FVec Ideal S256x128 .f32)
    (c : Fin 256) (z : Fin 1) :
    matmul (F := Ideal) dot_S256x128_S128x1_S256x1_1_0_0_1_n_n none x2
        (matmul dot_S128x256_S256x1_S128x1_1_0_0_1_n_n none x1
          (mulf (matmul dot_S256x1024_S1024x1_S256x1_1_0_0_1_n_n none v1
              (broadcast S1024x1 (Scalar.ofBits (F := Ideal) .f32 0x3F800000#32)) (constant S256x1 .f32 0x00000000#32))
            (broadcast S256x1 (Scalar.ofBits (F := Ideal) .f32 0x3A800000#32)))
          (constant S128x1 .f32 0x00000000#32))
        (constant S256x1 .f32 0x00000000#32) (ix2 c z)
      = ∑ j : Fin 128,
          (∑ c' : Fin 256, ((∑ p' : Fin 1024, v1 (ix2 c' p')) * Ideal.ofBits .f32 0x3A800000#32) * x1 (ix2 j c')) * x2 (ix2 c j) := by
  refine (Cert.Dense.matmul_plain_apply dot_S256x128_S128x1_S256x1_1_0_0_1_n_n_wf _ _ c z).trans ?_
  refine Finset.sum_congr rfl fun j _ => ?_
  rw [mul_comm]
  refine congrArg (· * x2 (ix2 c j)) ?_
  refine (Cert.Dense.matmul_plain_apply dot_S128x256_S256x1_S128x1_1_0_0_1_n_n_wf _ _ j z).trans ?_
  refine Finset.sum_congr rfl fun c' _ => ?_
  rw [mul_comm]
  refine congrArg (· * x1 (ix2 j c')) ?_
  show _ * _ = _
  refine congrArg (· * Ideal.ofBits .f32 0x3A800000#32) ?_
  exact onesSum_apply v1 c' z

/-- The spatial gate's argument at position `p`. -/
theorem spatial_apply (x3 : FVec Ideal S1x256 .f32) (v1 : FVec Ideal S256x1024 .f32) (hc3 : S1x256.ShapeCasts S1x256)
    (u : Fin 1) (p : Fin 1024) :
    matmul (F := Ideal) dot_S1x256_S256x1024_S1x1024_1_0_0_1_n_n none (shapeCast S1x256 x3 hc3) v1
        (constant S1x1024 .f32 0x00000000#32) (ix2 u p)
      = ∑ c' : Fin 256, x3 (ix2 (0 : Fin 1) c') * v1 (ix2 c' p) := by
  refine (Cert.Dense.matmul_plain_apply dot_S1x256_S256x1024_S1x1024_1_0_0_1_n_n_wf _ _ u p).trans ?_
  rw [shapeCast_self]
  have hu : u = 0 := Subsingleton.elim _ _
  subst hu
  rfl

/-- The whole body's stored value at (u, c, p): the slab function of the block's one batch element. -/
theorem body_apply (x0 : Vec Ideal S1x256x1024 .f32) (x1 : Vec Ideal S128x256 .f32) (x2 : Vec Ideal S256x128 .f32)
    (x3 : Vec Ideal S1x256 .f32) (u : Fin 1) (c : Fin 256) (p : Fin 1024) :
    k0_pay1 (F := Ideal) x0 x1 x2 x3 (ix3 u c p)
      = Cert.Scse.slab (fun c' p' => x0 (ix3 u c' p')) x1 x2 x3 c p := by
  unfold k0_pay1
  refine (Cert.Casts3.split_apply _ _ u c c (by have := u.isLt; omega) p).trans ?_
  show _ * (_ + _) = _
  rw [colSpread_apply, rowSpread_apply]
  show _ * (Ideal.logistic _ + Ideal.logistic _) = _
  rw [chanGate_apply, spatial_apply, asMatrix_apply x0 _ u c p]
  unfold Cert.Scse.slab
  simp only [asMatrix_apply x0 _ u]

/-- A block whose batch element `j 0` is batch element `i 0` of the whole batch, the weights being the whole
    weight arrays, stores at `j` what the gated activation of the whole batch is at `i`, when `i` and `j` have the
    same channel and position. -/
theorem block_eq_gated (X : (⟨3, ![64, 256, 1024]⟩ : Shape).Idx → EReal) (W1 : S128x256.Idx → EReal)
    (W2 : S256x128.Idx → EReal) (W3 : S1x256.Idx → EReal)
    (x0 : Vec Ideal S1x256x1024 .f32) (x1 : Vec Ideal S128x256 .f32) (x2 : Vec Ideal S256x128 .f32) (x3 : Vec Ideal S1x256 .f32)
    (j : S1x256x1024.Idx) (i : (⟨3, ![64, 256, 1024]⟩ : Shape).Idx)
    (h0 : ∀ c' p', x0 (ix3 (j 0) c' p') = X (ix3 (i 0) c' p')) (h1 : x1 = W1) (h2 : x2 = W2) (h3 : x3 = W3)
    (hi1 : (i 1).val = (j 1).val) (hi2 : (i 2).val = (j 2).val) :
    k0_pay1 (F := Ideal) x0 x1 x2 x3 j = Cert.Scse.gated X W1 W2 W3 i := by
  subst h1 h2 h3
  obtain ⟨b, c, p, rfl⟩ : ∃ (b : Fin 1) (c : Fin 256) (p : Fin 1024), j = ix3 b c p := ⟨j 0, j 1, j 2, eq_ix3 j⟩
  obtain ⟨b', c2, p2, rfl⟩ : ∃ (b' : Fin 64) (c2 : Fin 256) (p2 : Fin 1024), i = ix3 b' c2 p2 :=
    ⟨i 0, i 1, i 2, eq_ix3 i⟩
  have e1 : c2 = c := Fin.ext hi1
  have e2 : p2 = p := Fin.ext hi2
  subst e1 e2
  rw [body_apply, Cert.Scse.gated_apply]
  exact Cert.Scse.slab_congr h0 _ _ _ _ _

end Cert.ReferenceIdeal.Pay

end
-- ==== Proof.RefValue.lean ====
/-
  The reference's result array after the region.

  The grid has 64 points; point t stages batch element t of the flattened activation and the whole weight arrays, and
  writes back batch element t of the result.  The body's value is the slab function of that batch element, so what
  point t writes back is block t of the gated batch of the whole arrays, and the 64 blocks tile the result array.
-/
import proofs.«154778_g2000106105083958_pallasbulk_797_12_alg».proof.Proof.Gen.ReferenceIdeal.Frame
import proofs.«154778_g2000106105083958_pallasbulk_797_12_alg».proof.Proof.RefPay
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.Hand

open Cert.ReferenceIdeal Cert.ReferenceIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the activation's and the result's block index is the point along the batch
    axis and zero along the others; the weights' blocks are the whole arrays. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The activation's block at point `t` holds batch elements 1t … 1t + 0 of the flattened activation. -/
theorem iblk0_apply (c : Dev nD) (t : Fin cfg0.N) (y : S1x256x1024.Idx) (i : S64x256x1024.Idx)
    (h0 : (i 0).val = t.val * 1 + (y 0).val) (h1 : (i 1).val = (y 1).val) (h2 : (i 2).val = (y 2).val) :
    (iblk m c 0 t : Vec Ideal S1x256x1024 .f32) y = (V m c main_v0 : S64x256x1024.Idx → EReal) i := by
  obtain ⟨e0, e1, e2, -⟩ := idx_facts t
  show V m c main_v0 (((cfg0.win 0).blk t).view.emb y) = V m c main_v0 i
  congr 1
  funext a; apply Fin.ext
  match a with
  | ⟨0, _⟩ => show win0_0.index t (0 : Fin 3) * 1 + 1 * (y 0).val = (i 0).val; rw [e0, h0]; omega
  | ⟨1, _⟩ => show win0_0.index t (1 : Fin 3) * 256 + 1 * (y 1).val = (i 1).val; rw [e1, h1]; omega
  | ⟨2, _⟩ => show win0_0.index t (2 : Fin 3) * 1024 + 1 * (y 2).val = (i 2).val; rw [e2, h2]; omega

/-- The squeeze weights' block is the whole array. -/
theorem iblk1_eq (c : Dev nD) (t : Fin cfg0.N) :
    (iblk m c 1 t : Vec Ideal S128x256 .f32) = (V m c main_arg1 : S128x256.Idx → EReal) := by
  obtain ⟨-, -, -, e0, e1, -⟩ := idx_facts t
  funext y
  show V m c main_arg1 (((cfg0.win 1).blk t).view.emb y) = V m c main_arg1 y
  congr 1
  funext a; apply Fin.ext
  match a with
  | ⟨0, _⟩ => show win0_1.index t (0 : Fin 2) * 128 + 1 * (y 0).val = (y 0).val; rw [e0]; omega
  | ⟨1, _⟩ => show win0_1.index t (1 : Fin 2) * 256 + 1 * (y 1).val = (y 1).val; rw [e1]; omega

/-- The excitation weights' block is the whole array. -/
theorem iblk2_eq (c : Dev nD) (t : Fin cfg0.N) :
    (iblk m c 2 t : Vec Ideal S256x128 .f32) = (V m c main_arg2 : S256x128.Idx → EReal) := by
  obtain ⟨-, -, -, -, -, e0, e1, -⟩ := idx_facts t
  funext y
  show V m c main_arg2 (((cfg0.win 2).blk t).view.emb y) = V m c main_arg2 y
  congr 1
  funext a; apply Fin.ext
  match a with
  | ⟨0, _⟩ => show win0_2.index t (0 : Fin 2) * 256 + 1 * (y 0).val = (y 0).val; rw [e0]; omega
  | ⟨1, _⟩ => show win0_2.index t (1 : Fin 2) * 128 + 1 * (y 1).val = (y 1).val; rw [e1]; omega

/-- The spatial weight row's block is the whole row. -/
theorem iblk3_eq (c : Dev nD) (t : Fin cfg0.N) :
    (iblk m c 3 t : Vec Ideal S1x256 .f32) = (V m c main_v1 : S1x256.Idx → EReal) := by
  obtain ⟨-, -, -, -, -, -, -, e0, e1, -⟩ := idx_facts t
  funext y
  show V m c main_v1 (((cfg0.win 3).blk t).view.emb y) = V m c main_v1 y
  congr 1
  funext a; apply Fin.ext
  match a with
  | ⟨0, _⟩ => show win0_3.index t (0 : Fin 2) * 1 + 1 * (y 0).val = (y 0).val; rw [e0]; omega
  | ⟨1, _⟩ => show win0_3.index t (1 : Fin 2) * 256 + 1 * (y 1).val = (y 1).val; rw [e1]; omega

/-- The gated batch of the arrays as the region finds them. -/
abbrev target (c : Dev nD) : S64x256x1024.Idx → EReal :=
  Cert.Scse.gated (n := 64) (V m c main_v0 : S64x256x1024.Idx → EReal) (V m c main_arg1 : S128x256.Idx → EReal)
    (V m c main_arg2 : S256x128.Idx → EReal) (V m c main_v1 : S1x256.Idx → EReal)

/-- What point `t` writes back is block `t` of the gated batch. -/
theorem flushed_eq (c : Dev nD) (t : Fin cfg0.N) :
    (dats m 0 c).flushed 4 t = ((cfg0.win 4).blk t).view.read (Elt Ideal) (target m c) := by
  show (cfg0.win 4).cut (grid0.coords t) ((dats m 0 c).after 4 t) = _
  rw [after0_4]
  unfold out0_4
  rw [View.canon_unit_zero hz3]
  simp only [View.ld_unit_zero (S := S1x256x1024) hz3, View.ld_unit_zero (S := S128x256) hz2,
    View.ld_unit_zero (S := S256x128) hz2, View.ld_unit_zero (S := S1x256) hz2]
  obtain ⟨-, -, -, -, -, -, -, -, -, e0, e1, e2⟩ := idx_facts t
  funext j
  refine Cert.ReferenceIdeal.Pay.block_eq_gated (V m c main_v0 : S64x256x1024.Idx → EReal) (V m c main_arg1 : S128x256.Idx → EReal)
    (V m c main_arg2 : S256x128.Idx → EReal) (V m c main_v1 : S1x256.Idx → EReal)
    (iblk m c 0 t) (iblk m c 1 t) (iblk m c 2 t) (iblk m c 3 t) j (((cfg0.win 4).blk t).view.emb j)
    (fun c' p' => ?_) (iblk1_eq m c t) (iblk2_eq m c t) (iblk3_eq m c t) ?_ ?_
  · refine iblk0_apply m c t (ix3 (j 0) c' p') _ ?_ rfl rfl
    show win0_4.index t (0 : Fin 3) * 1 + 1 * (j 0).val = t.val * 1 + (j 0).val
    rw [e0]; omega
  · show win0_4.index t (1 : Fin 3) * 256 + 1 * (j 1).val = (j 1).val
    rw [e1]; omega
  · show win0_4.index t (2 : Fin 3) * 1024 + 1 * (j 2).val = (j 2).val
    rw [e2]; omega

/-- An index of the result array is in point `t`'s block iff each coordinate is in the block's range on its axis. -/
theorem mem_blk (t : Fin cfg0.N) (i : S64x256x1024.Idx) :
    i ∈ ((cfg0.win 4).blk t).view.set ↔ ∀ a : Fin 3, win0_4.index t a * S1x256x1024.size a ≤ (i a).val
      ∧ (i a).val < win0_4.index t a * S1x256x1024.size a + S1x256x1024.size a := by
  show i ∈ ((View.whole main_v2).slice (win0_4.rect t)).set ↔ _
  rw [View.set_slice_whole, Rect.mem_set_unit]
  exact Iff.rfl

/-- Every index of the result array is in the block of the point that holds its batch element. -/
theorem cover (i : S64x256x1024.Idx) :
    ∃ t : Fin cfg0.N, (cfg0.win 4).flush t = true ∧ i ∈ ((cfg0.win 4).blk t).view.set := by
  have h0 : (i 0).val < 64 := (i 0).isLt
  have h1 : (i 1).val < 256 := (i 1).isLt
  have h2 : (i 2).val < 1024 := (i 2).isLt
  have hN : cfg0.N = 64 := N_0
  refine ⟨⟨(i 0).val / 1, by rw [hN]; omega⟩, flush0_4 _, ?_⟩
  rw [mem_blk]
  obtain ⟨-, -, -, -, -, -, -, -, -, e0, e1, e2⟩ := idx_facts ⟨(i 0).val / 1, by rw [hN]; omega⟩
  intro a
  match a with
  | ⟨0, _⟩ =>
    show win0_4.index _ (0 : Fin 3) * 1 ≤ (i 0).val ∧ (i 0).val < win0_4.index _ (0 : Fin 3) * 1 + 1
    rw [e0]; show (i 0).val / 1 * 1 ≤ (i 0).val ∧ (i 0).val < (i 0).val / 1 * 1 + 1; omega
  | ⟨1, _⟩ =>
    show win0_4.index _ (1 : Fin 3) * 256 ≤ (i 1).val ∧ (i 1).val < win0_4.index _ (1 : Fin 3) * 256 + 256
    rw [e1]; omega
  | ⟨2, _⟩ =>
    show win0_4.index _ (2 : Fin 3) * 1024 ≤ (i 2).val ∧ (i 2).val < win0_4.index _ (2 : Fin 3) * 1024 + 1024
    rw [e2]; omega

/-- The result array after the region: the gated batch of the arrays the region found. -/
theorem final (c : Dev nD) : (dats m 0 c).arrAt 4 cfg0.N = target m c :=
  (dats m 0 c).arrAt_eq_of_cover 4 (target m c) (fun t _ => flushed_eq m c t) (cover)

/-! ## The host lines around the region -/

/-- The region finds the activation with its two spatial axes flattened. -/
theorem V_v0 (c : Dev nD) : (V m c main_v0 : S64x256x1024.Idx → EReal)
    = shapeCast S64x256x1024 (m ((c : Thread nD τ).loc main_arg0) : S64x256x32x32.Idx → EReal)
        shapeCasts_S64x256x32x32_S64x256x1024 := by
  show StableHlo.after hostOps0 (fun b => m (c, b)) (Proc.devRef .tc main_v0) = _
  after_results
  rfl

/-- The region finds the spatial weight column laid out as a row. -/
theorem V_v1 (c : Dev nD) : (V m c main_v1 : S1x256.Idx → EReal)
    = shapeCast S1x256 (m ((c : Thread nD τ).loc main_arg3) : S256x1.Idx → EReal) shapeCasts_S256x1_S1x256 := by
  show StableHlo.after hostOps0 (fun b => m (c, b)) (Proc.devRef .tc main_v1) = _
  after_results
  rfl

/-- The line after the region unflattens the positions of the result array. -/
theorem tail_v3 (c : Dev nD) :
    (Pipeline.afterTail₀ cfgs (dats m) 0 (V0 m) [hostOps1] c main_v3 : S64x256x32x32.Idx → EReal)
      = shapeCast S64x256x32x32 ((dats m 0 c).arrAt 4 cfg0.N : S64x256x1024.Idx → EReal)
          shapeCasts_S64x256x1024_S64x256x32x32 := by
  unfold Pipeline.afterTail₀
  show StableHlo.after hostOps1 _ (Proc.devRef .tc main_v3) = _
  after_results
  rw [show Pipeline.withArrays spec0 c (V0 m c) (fun w => (dats m 0 c).arrAt w cfg0.N) (Proc.devRef .tc main_v2)
      = (dats m 0 c).arrAt 4 cfg0.N from Pipeline.withArrays_arr spec0 launch0.win.arr_inj c _ _ 4]
  rfl

/-- The program's result from its arguments. -/
theorem result_eq (c : Dev nD) :
    (Pipeline.afterTail₀ cfgs (dats m) 0 (V0 m) [hostOps1] c main_v3 : S64x256x32x32.Idx → EReal)
      = Cert.Scse.outcome (m ((c : Thread nD τ).loc main_arg0)) (m ((c : Thread nD τ).loc main_arg1))
          (m ((c : Thread nD τ).loc main_arg2)) (m ((c : Thread nD τ).loc main_arg3))
          shapeCasts_S64x256x32x32_S64x256x1024 shapeCasts_S256x1_S1x256 shapeCasts_S64x256x1024_S64x256x32x32 := by
  rw [tail_v3, final]
  dsimp only [target]
  rw [V_v0, V_v1, V_main_arg1, V_main_arg2]
  rfl

/-- The run, read: the result at the gated batch of the arguments, the arguments unchanged. -/
theorem run : θ_run defs (onTc (τ := τ) (main (F := Ideal))) ⟨m, fun _ => 0, ρ⟩ fun r => ∀ c : Dev nD,
      r.2.mem ((c.tc : Thread nD τ).loc main_v3)
        = Cert.Scse.outcome (m ((c : Thread nD τ).loc main_arg0)) (m ((c : Thread nD τ).loc main_arg1))
            (m ((c : Thread nD τ).loc main_arg2)) (m ((c : Thread nD τ).loc main_arg3))
            shapeCasts_S64x256x32x32_S64x256x1024 shapeCasts_S256x1_S1x256 shapeCasts_S64x256x1024_S64x256x32x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (result_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c))⟩)
    (run_main m ρ)

end Cert.ReferenceIdeal.Hand

end
-- ==== Proof.lean ====
/-
  The kernel and its reference compute the concurrent spatial and channel squeeze-and-excite gate of a batch of
  activations: for every batch element, with s its 256 by 1024 slab (channels by flattened positions),

      out(c, p) = s(c, p) * ( logistic( sum_j (sum_c' (sum_p' s(c', p')) * 2^-10 * Wsq(j, c')) * Wex(c, j) )
                            + logistic( sum_c' w(c') * s(c', p) ) ).

  The kernel handles 8 batch elements per grid point (a lane sum over the positions, two products with the weight
  matrices given transposed, and the weight row times each of the 8 slabs, stacked); the reference handles one batch
  element per grid point (the sum over the positions as a product with a column of ones, and the weight matrices
  applied from the left).  On the extended reals both are the same function of the argument arrays: a product with
  the number one is the factor itself, the factors of a product may be exchanged, and an entry of one batch element
  depends on no other batch element, so the two blockings of the batch axis write the same array.  No law that needs
  finite values is used.  Both programs flatten the spatial axes before their region and unflatten them after it.
-/
import proofs.«154778_g2000106105083958_pallasbulk_797_12_alg».proof.Defs
import proofs.«154778_g2000106105083958_pallasbulk_797_12_alg».proof.Proof.Gen.Kernel
import proofs.«154778_g2000106105083958_pallasbulk_797_12_alg».proof.Proof.Gen.Kernel.Skeleton
import proofs.«154778_g2000106105083958_pallasbulk_797_12_alg».proof.Proof.Gen.Kernel.Launch
import proofs.«154778_g2000106105083958_pallasbulk_797_12_alg».proof.Proof.Gen.Kernel.Points
import proofs.«154778_g2000106105083958_pallasbulk_797_12_alg».proof.Proof.Gen.Kernel.Frame
import proofs.«154778_g2000106105083958_pallasbulk_797_12_alg».proof.Proof.Gen.KernelIdeal
import proofs.«154778_g2000106105083958_pallasbulk_797_12_alg».proof.Proof.Gen.KernelIdeal.Skeleton
import proofs.«154778_g2000106105083958_pallasbulk_797_12_alg».proof.Proof.Gen.KernelIdeal.Launch
import proofs.«154778_g2000106105083958_pallasbulk_797_12_alg».proof.Proof.Gen.KernelIdeal.Points
import proofs.«154778_g2000106105083958_pallasbulk_797_12_alg».proof.Proof.Gen.KernelIdeal.Frame
import proofs.«154778_g2000106105083958_pallasbulk_797_12_alg».proof.Proof.Gen.ReferenceIdeal
import proofs.«154778_g2000106105083958_pallasbulk_797_12_alg».proof.Proof.Gen.ReferenceIdeal.Skeleton
import proofs.«154778_g2000106105083958_pallasbulk_797_12_alg».proof.Proof.Gen.ReferenceIdeal.Launch
import proofs.«154778_g2000106105083958_pallasbulk_797_12_alg».proof.Proof.Gen.ReferenceIdeal.Points
import proofs.«154778_g2000106105083958_pallasbulk_797_12_alg».proof.Proof.Gen.ReferenceIdeal.Frame
import proofs.«154778_g2000106105083958_pallasbulk_797_12_alg».proof.Proof.Gen.Pre_finite_inputs
import proofs.«154778_g2000106105083958_pallasbulk_797_12_alg».proof.Proof.KernelValue
import proofs.«154778_g2000106105083958_pallasbulk_797_12_alg».proof.Proof.RefValue
import Idealize.ShloMosaic.Adequacy
import Idealize.ShloMosaic.Init

noncomputable section

namespace Cert.Proof

open Idealize.ShloMosaic Idealize.ShloMosaic.TcCoe Idealize.SL.Sem

/-- Both idealized programs end with the result array at the gated batch of the argument arrays, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.Gen.frame m ρ,
    trivial,
    algebraic⟩

end Cert.Proof

end
